-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S1 : Shape := ⟨1, ![1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4096x256 .f32) (main_arg1 : FVec F S4096x4096 .f32) (main_arg2 : FVec F S1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S1 : Shape := ⟨1, ![1]⟩
abbrev S1x1 : Shape := ⟨2, ![1, 1]⟩
abbrev S512x4096 : Shape := ⟨2, ![512, 4096]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S1, .f32⟩
  | .hbm, ⟨3, _⟩ => ⟨S1x1, .f32⟩
  | .hbm, ⟨4, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S1x1, .f32⟩
  | .local _ .vmem, ⟨4, _⟩ => ⟨S512x256, .f32⟩
  | .local _ .vmem, ⟨5, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S1 : Shape := ⟨1, ![1]⟩
abbrev S_ : Shape := ⟨0, ![]⟩
abbrev S1x1 : Shape := ⟨2, ![1, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S1, .f32⟩
  | .hbm, ⟨3, _⟩ => ⟨S4096x256, .f32⟩
  | .hbm, ⟨4, _⟩ => ⟨S_, .f32⟩
  | .hbm, ⟨5, _⟩ => ⟨S4096x256, .f32⟩
  | .hbm, ⟨6, _⟩ => ⟨S4096x256, .i1⟩
  | .hbm, ⟨7, _⟩ => ⟨S1x1, .f32⟩
  | .hbm, ⟨8, _⟩ => ⟨S4096x256, .f32⟩
  | .hbm, ⟨9, _⟩ => ⟨S4096x256, .f32⟩
  | .hbm, ⟨10, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  bcast_S1_S1x1_1 : S1.BroadcastsInDim S1x1 (![1] : Fin 1 → Fin S1x1.rank)
  bcast_S1x1_S4096x256_0_1 : S1x1.BroadcastsInDim S4096x256 (![0, 1] : Fin 2 → Fin S4096x256.rank)
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Prelu.lean ====
/-
  The function both programs compute, stated once over the argument arrays and over no program.

  With `adj : [4096, 4096]`, `seq : [4096, 256]` and a one-element slope `w`, the result at row `r`, column `c` is
  the PReLU of the matrix product's entry there:
      y = ∑ k, adj[r, k] · seq[k, c],        result[r, c] = y  if y ≥ 0,  w · y  otherwise,
  every operation read on the extended reals. The sum, the comparison against the zero word and the product with the
  slope are kept as the float interface's operations at the ideal instance; neither side of the certificate
  evaluates them, so no law of the extended reals (and no finiteness of the inputs) is needed.
-/
import Idealize.ShloMosaic.PureOps.Ideal
import Idealize.ShloMosaic.Lib.ValueIdx

noncomputable section

namespace Cert.Prelu

open Idealize.ShloMosaic Idealize.ShloMosaic.ValueIdx

/-- PReLU of one extended real `y` with slope `w`: `y` itself where `y ≥ 0` (ordered comparison against the zero
    word), `w · y` elsewhere. -/
def prelu (w y : Ideal .f32) : Ideal .f32 :=
  Scalar.select (FloatOps.cmpf (F := Ideal) .oge y (FloatOps.ofBits (F := Ideal) .f32 0x00000000#32)) y
    (FloatOps.mulf (F := Ideal) w y)

/-- Entry `(r, c)` of the product `adj · seq`: row `r` of `adj` against column `c` of `seq`, summed over the 4096
    shared indices. -/
def entry (adj : (⟨2, ![4096, 4096]⟩ : Shape).Idx → EReal) (seq : (⟨2, ![4096, 256]⟩ : Shape).Idx → EReal)
    (r : Fin 4096) (c : Fin 256) : EReal :=
  ∑ k : Fin 4096, adj (ix2 r k) * seq (ix2 k c)

/-- The whole result array: PReLU, with the slope's one element, of every entry of `adj · seq`. -/
def result (seq : (⟨2, ![4096, 256]⟩ : Shape).Idx → EReal) (adj : (⟨2, ![4096, 4096]⟩ : Shape).Idx → EReal)
    (w : (⟨1, ![1]⟩ : Shape).Idx → EReal) : (⟨2, ![4096, 256]⟩ : Shape).Idx → EReal :=
  fun i => prelu (w (ix1 0)) (entry adj seq (i 0) (i 1))

/-- The result at an index given by its coordinates. -/
theorem result_ix2 (seq : (⟨2, ![4096, 256]⟩ : Shape).Idx → EReal) (adj : (⟨2, ![4096, 4096]⟩ : Shape).Idx → EReal)
    (w : (⟨1, ![1]⟩ : Shape).Idx → EReal) (r : Fin 4096) (c : Fin 256) :
    result seq adj w (ix2 r c) = prelu (w (ix1 0)) (∑ k : Fin 4096, adj (ix2 r k) * seq (ix2 k c)) := rfl

/-- A one-element array has one index. -/
theorem idx1_eq (k : (⟨1, ![1]⟩ : Shape).Idx) : k = ix1 (0 : Fin 1) :=
  (eq_ix1 k).trans (congrArg ix1 (Subsingleton.elim (α := Fin 1) _ _))

end Cert.Prelu

end
-- ==== Proof.RefPrelu.lean ====
/-
  The reference's result array is `Prelu.result` of its arguments.

  The reference multiplies `adj` by `seq` with one `dot_general` (contracting `adj`'s columns against `seq`'s rows),
  compares the product with a broadcast zero, multiplies it by the slope broadcast from its one element, and selects
  between the two. Read at an index `i = (r, c)` each stage is an operation of its operands at an index: the product
  is `∑ k, adj[r, k] · seq[k, c]`, the two broadcasts read the zero word and the slope's only element, and the
  comparison, product and select are elementwise — which is `Prelu.result` term for term.
-/
import proofs.«169105_g90752658964618_cont_sun_m_820_17_alg».proof.Proof.Gen.ReferenceIdeal.Read
import proofs.«169105_g90752658964618_cont_sun_m_820_17_alg».proof.Proof.Prelu

noncomputable section

namespace Cert.ReferenceIdeal.PreluValue

open Cert.ReferenceIdeal Cert.ReferenceIdeal.Gen Cert.ReferenceIdeal.Read
open Idealize.ShloMosaic Idealize.ShloMosaic.ValueIdx

/-- The left operand's index of the product at `(r, c)`, `k`: row `r`, column `k` of `adj`. -/
theorem lidx_eq (i : S4096x256.Idx) (k : Fin 4096) : lidx_main_v0 i k = ix2 (i 0) k :=
  funext fun a => Fin.ext (by match a with | ⟨0, _⟩ => rfl | ⟨1, _⟩ => rfl)

/-- The right operand's: row `k`, column `c` of `seq`. -/
theorem ridx_eq (i : S4096x256.Idx) (k : Fin 4096) : ridx_main_v0 i k = ix2 k (i 1) :=
  funext fun a => Fin.ext (by match a with | ⟨0, _⟩ => rfl | ⟨1, _⟩ => rfl)

/-- Both broadcasts of the slope read its one element. -/
theorem widx_eq (i : S4096x256.Idx) : idx_main_v3 (idx_main_v4 i) = ix1 0 :=
  Cert.Prelu.idx1_eq _

/-- The reference's last stage, as a function of the three arguments, is `Prelu.result`. -/
theorem result_eq (x0 : (⟨S4096x256, .f32⟩ : BufTy).Contents (Elt Ideal)) (x1 : (⟨S4096x4096, .f32⟩ : BufTy).Contents (Elt Ideal))
    (x2 : (⟨S1, .f32⟩ : BufTy).Contents (Elt Ideal)) :
    val_main_v6 (F := Ideal) x0 x1 x2 = Cert.Prelu.result x0 x1 x2 := by
  funext i
  rw [val_main_v6_apply, val_main_v2_apply, val_main_v5_apply, val_main_v4_apply, val_main_v3_apply, val_main_v1_apply,
    val_main_cst_apply, val_main_v0_apply]
  simp only [lidx_eq, ridx_eq, widx_eq]
  rfl

end Cert.ReferenceIdeal.PreluValue

end
-- ==== Proof.Payload.lean ====
/-
  What the kernel body stores, read at an index of its block.

  The body loads a 512-row block `a` of `adj`, all of `seq` as `s`, and the slope as a 1×1 block `w`; it stores
      select (y ≥ 0) y (w[0,0] · y)        with   y = matmul a s 0,
  a [512, 256] block. On the extended reals the matrix unit's product into a zero accumulator is the plain sum over the
  4096 contracted indices, so at row `p`, column `q` of the block the stored value is the PReLU, with slope `w[0,0]`, of
  `∑ k, a[p, k] · s[k, q]`.
-/
import proofs.«169105_g90752658964618_cont_sun_m_820_17_alg».proof.Proof.Gen.KernelIdeal.Skeleton
import proofs.«169105_g90752658964618_cont_sun_m_820_17_alg».proof.Proof.Prelu
import Idealize.ShloMosaic.PureOps.Ideal.Laws
import Idealize.ShloMosaic.Lib.ValueIdx

noncomputable section

namespace Cert.KernelIdeal.PreluValue

open Cert.KernelIdeal Cert.KernelIdeal.Gen
open Idealize.ShloMosaic Idealize.ShloMosaic.ValueIdx

/-- The product's dimension numbers: the block's rows are kept, its columns contracted against `seq`'s rows, `seq`'s
    columns kept. -/
abbrev dims : DotDims S512x4096 S4096x256 S512x256 := dot_S512x4096_S4096x256_S512x256_1_0_0_1_n_n

theorem lhs_row (j : S512x256.Idx) (q : dims.contr.Idx) : (dims.lhsIdx j q 0).val = (j 0).val := by
  unfold DotDims.lhsIdx
  rw [dif_neg (show ¬(0 : Fin S512x4096.rank) ∈ dims.lhsBatch by decide),
    dif_pos (show (0 : Fin S512x4096.rank) ∈ dims.lhsNonContracting by decide)]
  rfl

theorem lhs_col (j : S512x256.Idx) (q : dims.contr.Idx) : (dims.lhsIdx j q 1).val = (q ⟨0, by decide⟩).val :=
  dims.lhsIdx_val_of_single rfl j q

theorem rhs_row (j : S512x256.Idx) (q : dims.contr.Idx) : (dims.rhsIdx j q 0).val = (q ⟨0, by decide⟩).val :=
  dims.rhsIdx_val_of_single rfl j q

theorem rhs_col (j : S512x256.Idx) (q : dims.contr.Idx) : (dims.rhsIdx j q 1).val = (j 1).val := by
  unfold DotDims.rhsIdx
  rw [dif_neg (show ¬(1 : Fin S4096x256.rank) ∈ dims.rhsBatch by decide),
    dif_pos (show (1 : Fin S4096x256.rank) ∈ dims.rhsNonContracting by decide)]
  rfl

/-- The matrix unit's product into the zero accumulator, at row `p`, column `q`: the sum over the contracted index of
    the block's row `p` against `seq`'s column `q`. -/
theorem product_at (a : FVec Ideal S512x4096 .f32) (s : FVec Ideal S4096x256 .f32) (p : Fin 512) (q : Fin 256) :
    FloatOps.matmul dims none a s (constant S512x256 .f32 0x00000000#32) (ix2 p q)
      = ∑ k : Fin 4096, a (ix2 p k) * s (ix2 k q) := by
  rw [Ideal.matmul_constant_zero_apply, ← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 4096 rfl rfl).symm k) = ix2 k q := funext fun a => Fin.ext (by
    match a with
    | ⟨0, _⟩ => exact (rhs_row _ _).trans hk
    | ⟨1, _⟩ => exact rhs_col _ _)
  rw [el, er]

/-- The stored block at row `p`, column `q`: PReLU, with the slope block's one element (extracted at position (0, 0)),
    of the product's entry. -/
theorem payload_at (a : FVec Ideal S512x4096 .f32) (s : FVec Ideal S4096x256 .f32) (w : FVec Ideal S1x1 .f32)
    (p : Fin 512) (q : Fin 256) :
    k0_pay1 (F := Ideal) a s w (ix2 p q)
      = Cert.Prelu.prelu (extractAt ![0, 0] w Facts₀.inpos_S1x1_p0_0) (∑ k : Fin 4096, a (ix2 p k) * s (ix2 k q)) := by
  rw [← product_at a s p q]
  rfl

end Cert.KernelIdeal.PreluValue

end
-- ==== Proof.ResultArray.lean ====
/-
  From the eight row blocks to the whole result array.

  The grid has eight points. Point `t` stages rows `512 t … 512 t + 511` of `adj` (all 4096 columns), the whole of
  `seq`, and the slope reshaped to a 1×1 array (always block (0, 0)), and writes back rows `512 t … 512 t + 511` of the
  result (all 256 columns). So what point `t` writes at row `p`, column `q` of its block is the PReLU of
  `∑ k, adj[512 t + p, k] · seq[k, q]`: the block of `Prelu.result` at rows `512 t …`. Row `r` of the result lies in
  the block of point `r / 512`, so the eight blocks cover the array and it ends holding `Prelu.result` everywhere.
-/
import proofs.«169105_g90752658964618_cont_sun_m_820_17_alg».proof.Proof.Gen.KernelIdeal.Value
import proofs.«169105_g90752658964618_cont_sun_m_820_17_alg».proof.Proof.Payload
import Idealize.ShloMosaic.Lib.Pipeline.Value
import Idealize.ShloMosaic.Lib.StableHlo.Run

noncomputable section

namespace Cert.KernelIdeal.PreluValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at grid point `t`: `adj`'s and the result's windows move down one block of rows per point, `seq`'s
    and the slope's stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- `adj`'s block at point `t` is rows `512 t …` of the argument. -/
theorem adj_block (c : Dev nD) (t : Fin cfg0.N) (y : S512x4096.Idx) (k : S4096x4096.Idx)
    (hk0 : (k 0).val = t.val * 512 + (y 0).val) (hk1 : (k 1).val = (y 1).val) :
    (iblk m c 0 t : Vec Ideal S512x4096 .f32) y = (m ((c : Thread nD τ).loc main_arg1) : S4096x4096.Idx → EReal) k := by
  obtain ⟨e0, e1, -⟩ := block_indices t
  unfold iblk
  rw [View.read_apply]
  show V m c main_arg1 _ = _
  rw [V_main_arg1]
  refine congrArg _ (funext fun a => Fin.ext ?_)
  match a with
  | ⟨0, _⟩ => show win0_0.index t (0 : Fin 2) * 512 + 1 * (y 0).val = (k 0).val; rw [e0, hk0]; omega
  | ⟨1, _⟩ => show win0_0.index t (1 : Fin 2) * 4096 + 1 * (y 1).val = (k 1).val; rw [e1, hk1]; omega

/-- `seq`'s block at every point is the whole argument. -/
theorem seq_block (c : Dev nD) (t : Fin cfg0.N) (y : S4096x256.Idx) :
    (iblk m c 1 t : Vec Ideal S4096x256 .f32) y = (m ((c : Thread nD τ).loc main_arg0) : S4096x256.Idx → EReal) y := by
  obtain ⟨-, -, e0, e1, -⟩ := block_indices t
  unfold iblk
  rw [View.read_apply]
  show V m c main_arg0 _ = _
  rw [V_main_arg0]
  refine congrArg _ (funext fun a => Fin.ext ?_)
  match a with
  | ⟨0, _⟩ => show win0_1.index t (0 : Fin 2) * 4096 + 1 * (y 0).val = (y 0).val; rw [e0]; omega
  | ⟨1, _⟩ => show win0_1.index t (1 : Fin 2) * 256 + 1 * (y 1).val = (y 1).val; rw [e1]; omega

/-- The 1×1 array the region finds is the slope argument reshaped: its one element is the slope's. -/
theorem slope_array (c : Dev nD) (y : S1x1.Idx) :
    (V m c main_v0 : S1x1.Idx → EReal) y = (m ((c : Thread nD τ).loc main_arg2) : S1.Idx → EReal) (ix1 0) := by
  have e : (V m c main_v0 : S1x1.Idx → EReal)
      = shapeCast S1x1 (m ((c : Thread nD τ).loc main_arg2) : S1.Idx → EReal) Facts₀.shapeCasts_S1_S1x1 := by
    dsimp only [V, hostOps0]; after_results; rfl
  rw [e]
  unfold shapeCast
  exact congrArg _ (Cert.Prelu.idx1_eq _)

/-- The slope's block at every point holds the slope's element. -/
theorem slope_block (c : Dev nD) (t : Fin cfg0.N) (y : S1x1.Idx) :
    (iblk m c 2 t : Vec Ideal S1x1 .f32) y = (m ((c : Thread nD τ).loc main_arg2) : S1.Idx → EReal) (ix1 0) := by
  unfold iblk
  rw [View.read_apply]
  show V m c main_v0 _ = _
  exact slope_array m c _

/-- One element of a stored block against one element of `Prelu.result`: if the `adj` block `a` is rows `512 b …` of
    `adj`, `s` is `seq` and `w` holds the slope, the stored value at `j` is the result at row `512 b + j₀`, column `j₁`. -/
theorem payload_eq_result (a : FVec Ideal S512x4096 .f32) (s : FVec Ideal S4096x256 .f32) (w : FVec Ideal S1x1 .f32)
    (adj : S4096x4096.Idx → EReal) (seq : S4096x256.Idx → EReal) (slope : S1.Idx → EReal) (b : ℕ)
    (ha : ∀ (y : S512x4096.Idx) (k : S4096x4096.Idx), (k 0).val = b * 512 + (y 0).val → (k 1).val = (y 1).val → a y = adj k)
    (hs : ∀ y, s y = seq y) (hw : ∀ y, w y = slope (ix1 0))
    (j : S512x256.Idx) (i : S4096x256.Idx) (hi0 : (i 0).val = b * 512 + (j 0).val) (hi1 : (i 1).val = (j 1).val) :
    k0_pay1 (F := Ideal) a s w j = Cert.Prelu.result seq adj slope i := by
  obtain ⟨p, q, rfl⟩ : ∃ (p : Fin 512) (q : Fin 256), j = ix2 p q := ⟨j 0, j 1, eq_ix2 j⟩
  obtain ⟨r, q', rfl⟩ : ∃ (r : Fin 4096) (q' : Fin 256), i = ix2 r q' := ⟨i 0, i 1, eq_ix2 i⟩
  obtain rfl : q' = q := Fin.ext hi1
  rw [payload_at, Cert.Prelu.result_ix2]
  unfold extractAt
  rw [hw]
  refine congrArg _ (Finset.sum_congr rfl fun k _ => ?_)
  rw [ha (ix2 p k) (ix2 r k) hi0 rfl, hs]

/-- WHAT POINT `t` WRITES BACK is block `t` of `Prelu.result` of the argument arrays. -/
theorem flushed_eq (c : Dev nD) (t : Fin cfg0.N) :
    (dats m 0 c).flushed 3 t = ((cfg0.win 3).blk t).view.read (Elt Ideal)
      (Cert.Prelu.result (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S512x4096) zero_offsets, View.ld_unit_zero (S := S4096x256) zero_offsets,
    View.ld_unit_zero (S := S1x1) zero_offsets]
  obtain ⟨-, -, -, -, -, -, e0, e1⟩ := block_indices t
  funext j
  show k0_pay1 (F := Ideal) (iblk m c 0 t) (iblk m c 1 t) (iblk m c 2 t) j
    = Cert.Prelu.result (m ((c : Thread nD τ).loc main_arg0)) (m ((c : Thread nD τ).loc main_arg1)) (m ((c : Thread nD τ).loc main_arg2))
        (((cfg0.win 3).blk t).view.emb j)
  refine payload_eq_result (iblk m c 0 t) (iblk m c 1 t) (iblk m c 2 t) _ _ _ t.val
    (adj_block m c t) (seq_block m c t) (slope_block m c t) j _ ?_ ?_
  · show win0_3.index t (0 : Fin 2) * 512 + 1 * (j 0).val = t.val * 512 + (j 0).val
    rw [e0]; omega
  · show win0_3.index t (1 : Fin 2) * 256 + 1 * (j 1).val = (j 1).val
    rw [e1]; omega

/-- An index of the result array is in point `t`'s block iff each coordinate is in the block's range on its axis. -/
theorem mem_block (t : Fin cfg0.N) (i : S4096x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v1).slice (win0_3.rect t)).set ↔ _
  rw [View.set_slice_whole, Rect.mem_set_unit]
  exact Iff.rfl

/-- Every index of the result array lies in the block of the point its row belongs to. -/
theorem covered (i : S4096x256.Idx) :
    ∃ t : Fin cfg0.N, (cfg0.win 3).flush t = true ∧ i ∈ ((cfg0.win 3).blk t).view.set := by
  have hN : cfg0.N = 8 := N_0
  have hi0 : (i 0).val < 4096 := (i 0).isLt
  have hi1 : (i 1).val < 256 := (i 1).isLt
  have ht : (i 0).val / 512 < cfg0.N := by rw [hN]; omega
  obtain ⟨-, -, -, -, -, -, e0, e1⟩ := block_indices ⟨(i 0).val / 512, ht⟩
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, ht⟩ (1 : Fin 2) * 256 ≤ (i 1).val
      ∧ (i 1).val < win0_3.index ⟨(i 0).val / 512, ht⟩ (1 : Fin 2) * 256 + 256
    rw [e1]; omega

/-- THE RESULT ARRAY after the run is `Prelu.result` of the argument arrays. -/
theorem final (c : Dev nD) : (dats m 0 c).arrAt 3 cfg0.N
    = Cert.Prelu.result (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at `Prelu.result` of the arguments, the arguments unchanged. -/
theorem run : θ_run defs (onTc (τ := τ) (main (F := Ideal))) ⟨m, fun _ => 0, ρ⟩ fun r => ∀ c : Dev nD,
      r.2.mem ((c : Thread nD τ).loc main_v1)
        = Cert.Prelu.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.PreluValue

end
-- ==== Proof.lean ====
/-
  A dense product followed by PReLU: the kernel against its jnp reference, on the extended reals.

  Both programs take `seq : [4096, 256]`, `adj : [4096, 4096]` and a one-element slope `w`, and return
      result[r, c] = y  if y ≥ 0,  w · y  otherwise,        y = ∑ k, adj[r, k] · seq[k, c]
  (`Prelu.result`). The reference computes it with one `dot_general`, a comparison with zero, a product with the
  broadcast slope and a select (`RefPrelu`). The kernel walks eight blocks of 512 rows of `adj`; at each it multiplies the
  block by the whole of `seq` on the matrix unit into a zero accumulator — on the extended reals the same sum over `k` —
  applies the same comparison, product and select (`Payload`), and writes 512 rows of the result; the eight blocks
  tile the result array (`ResultArray`). The two sums are the same sum term by term, so no law of the extended reals
  beyond that is used and the finiteness of the inputs is never opened. The idealized kernel is the kernel's own text
  read on the extended reals (no rewrite was made), so there is nothing to preserve.
-/
import proofs.«169105_g90752658964618_cont_sun_m_820_17_alg».proof.Defs
import proofs.«169105_g90752658964618_cont_sun_m_820_17_alg».proof.Proof.Gen.Kernel
import proofs.«169105_g90752658964618_cont_sun_m_820_17_alg».proof.Proof.Gen.Kernel.Frame
import proofs.«169105_g90752658964618_cont_sun_m_820_17_alg».proof.Proof.Gen.KernelIdeal
import proofs.«169105_g90752658964618_cont_sun_m_820_17_alg».proof.Proof.Gen.KernelIdeal.Frame
import proofs.«169105_g90752658964618_cont_sun_m_820_17_alg».proof.Proof.Gen.KernelIdeal.Value
import proofs.«169105_g90752658964618_cont_sun_m_820_17_alg».proof.Proof.Gen.ReferenceIdeal
import proofs.«169105_g90752658964618_cont_sun_m_820_17_alg».proof.Proof.Gen.ReferenceIdeal.Run
import proofs.«169105_g90752658964618_cont_sun_m_820_17_alg».proof.Proof.Gen.ReferenceIdeal.Read
import proofs.«169105_g90752658964618_cont_sun_m_820_17_alg».proof.Proof.Gen.Pre_finite_inputs
import proofs.«169105_g90752658964618_cont_sun_m_820_17_alg».proof.Proof.RefPrelu
import proofs.«169105_g90752658964618_cont_sun_m_820_17_alg».proof.Proof.ResultArray

noncomputable section

namespace Cert.Proof

open Idealize.ShloMosaic Idealize.ShloMosaic.TcCoe Idealize.SL.Sem

/-- The word-level kernel runs to the end, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array ends at `Prelu.result` of its arguments
    (its eight blocks) and the reference's at its last stage of its own, which is the same function of the same
    arrays. -/
theorem algebraic : Cert.algebraic_KernelIdeal_ReferenceIdeal := by
  intro m ρ m' ρ' _ hagree
  refine ⟨fun c => Cert.Prelu.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.PreluValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.PreluValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
